-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S8x4096x4096 : Shape := ⟨3, ![8, 4096, 4096]⟩
abbrev S8x128x128 : Shape := ⟨3, ![8, 128, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S8x4096x4096 : S_.BroadcastsInDim S8x4096x4096 (![] : Fin 0 → Fin S8x4096x4096.rank)
  reducesTo_S8x4096x4096_S_d0_1_2 : S8x4096x4096.ReducesTo [0, 1, 2] S_
  bcast_S_S8x128x128 : S_.BroadcastsInDim S8x128x128 (![] : Fin 0 → Fin S8x128x128.rank)
  reducesTo_S8x128x128_S_d0_1_2 : S8x128x128.ReducesTo [0, 1, 2] S_

variable [Facts]

def fn {F : FTy → Type} [FloatOps F] (main_arg0 : FVec F S4096x128 .f32) (main_arg1 : FVec F S8x4096x4096 .f32) (main_arg2 : FVec F S8x128x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S8x4096x4096 .f32 := Host.absf main_arg1
  let main_cst_0 : FVec F S_ .f32 := constant S_ .f32 0x7F800000#32
  let main_v5 : FVec F S8x4096x4096 .f32 := broadcastInDim S8x4096x4096 ![] bcast_S_S8x4096x4096 main_cst_0
  let main_v6 : IVec S8x4096x4096 1 := cmpf .olt main_v4 main_v5
  let main_c_1 : IVec S_ 1 := constantI S_ 1 1#1
  let main_v7 : IVec S_ 1 := (fun x v => Host.reduce IntOp.andi x v reducesTo_S8x4096x4096_S_d0_1_2 h_S_) main_v6 main_c_1
  let main_v8 : IVec S_ 1 := andi main_v3 main_v7
  let main_v9 : FVec F S8x128x128 .f32 := Host.absf main_arg2
  let main_cst_2 : FVec F S_ .f32 := constant S_ .f32 0x7F800000#32
  let main_v10 : FVec F S8x128x128 .f32 := broadcastInDim S8x128x128 ![] bcast_S_S8x128x128 main_cst_2
  let main_v11 : IVec S8x128x128 1 := cmpf .olt main_v9 main_v10
  let main_c_3 : IVec S_ 1 := constantI S_ 1 1#1
  let main_v12 : IVec S_ 1 := (fun x v => Host.reduce IntOp.andi x v reducesTo_S8x128x128_S_d0_1_2 h_S_) main_v11 main_c_3
  let main_v13 : IVec S_ 1 := andi main_v8 main_v12
  main_v13
-- ==== Kernel.lean ====
abbrev S4096x128 : Shape := ⟨2, ![4096, 128]⟩
abbrev S8x4096x4096 : Shape := ⟨3, ![8, 4096, 4096]⟩
abbrev S8x128x128 : Shape := ⟨3, ![8, 128, 128]⟩
abbrev S8x4096x128 : Shape := ⟨3, ![8, 4096, 128]⟩
abbrev S1x128x128 : Shape := ⟨3, ![1, 128, 128]⟩
abbrev S1x4096x128 : Shape := ⟨3, ![1, 4096, 128]⟩
abbrev S128x128 : Shape := ⟨2, ![128, 128]⟩
abbrev S1x512x4096 : Shape := ⟨3, ![1, 512, 4096]⟩
abbrev S512x128 : Shape := ⟨2, ![512, 128]⟩
abbrev S512x4096 : Shape := ⟨2, ![512, 4096]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S4096x128, .f32⟩
  | .hbm, ⟨1, _⟩ => ⟨S8x4096x4096, .f32⟩
  | .hbm, ⟨2, _⟩ => ⟨S8x128x128, .f32⟩
  | .hbm, ⟨3, _⟩ => ⟨S8x4096x128, .bf16⟩
  | .hbm, ⟨4, _⟩ => ⟨S4096x128, .f32⟩
  | .local _ .vmem, ⟨0, _⟩ => ⟨S4096x128, .f32⟩
  | .local _ .vmem, ⟨1, _⟩ => ⟨S1x128x128, .f32⟩
  | .local _ .vmem, ⟨2, _⟩ => ⟨S1x128x128, .f32⟩
  | .local _ .vmem, ⟨3, _⟩ => ⟨S1x4096x128, .bf16⟩
  | .local _ .vmem, ⟨4, _⟩ => ⟨S1x4096x128, .bf16⟩
  | .local _ .vmem, ⟨5, _⟩ => ⟨S1x512x4096, .f32⟩
  | .local _ .vmem, ⟨6, _⟩ => ⟨S1x512x4096, .f32⟩
  | .local _ .vmem, ⟨7, _⟩ => ⟨S8x4096x128, .bf16⟩
  | .local _ .vmem, ⟨8, _⟩ => ⟨S512x128, .f32⟩
  | .local _ .vmem, ⟨9, _⟩ => ⟨S512x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def k1_off1 (i : grid1.Coords) : Fin 3 → Nat :=
  let arg1 : BitVec 32 := BitVec.ofNat 32 (i 1).val
  let v5 : Index := Scalar.indexCast arg1
  let c0_3 : Index := 0#32
  let c0_4 : Index := 0#32
  ![v5.toNat, 0, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8x4096x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  transposes_S128x128_p1_0_S128x128 : S128x128.Transposes [1, 0] S128x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  shapeCasts_S4096x128_S1x4096x128 : S4096x128.ShapeCasts S1x4096x128
  packedbf16_S1x4096x128_S1x4096x128_0_0_0 : (Rect.unit (s := S1x4096x128) ![0, 0, 0] S1x4096x128.size inb_S1x4096x128_S1x4096x128_0_0_0).PackedRows (EltTy.packing .bf16)
  inb_S512x128_S512x128_0_0 : ∀ a, (![0, 0] : Fin 2 → Nat) a + S512x128.size a ≤ S512x128.size a
  h_S512x128 : 0 < S512x128.numel
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  reduces_S512x4096_S512 : S512x4096.Reduces [1] S512
  shapeCasts_S512_S512x1 : S512.ShapeCasts S512x1
  shapeCasts_S512x128_S512x128 : S512x128.ShapeCasts S512x128
  broadcasts_S512x1_S512x128 : S512x1.Broadcasts S512x128
  dot_S4096x128_S128x128_S4096x128_1_0_0_1_n_n_wf : DotDims.WF S4096x128 S128x128 S4096x128 [1] [0] [0] [1] [] []
  dot_S512x4096_S4096x128_S512x128_1_0_0_1_n_n_wf : DotDims.WF S512x4096 S4096x128 S512x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x128.size a
  hwx0_0 : ∀ i : grid0.Coords, EltTy.bits .f32 = 32 ∨ (Rect.block (s := S4096x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S8x128x128.size a
  hwx0_1 : ∀ i : grid0.Coords, EltTy.bits .f32 = 32 ∨ (Rect.block (s := S8x128x128) S1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x128.size a ≤ S8x4096x128.size a
  hwx0_2 : ∀ i : grid0.Coords, EltTy.bits .bf16 = 32 ∨ (Rect.block (s := S8x4096x128) S1x4096x128.size (cc0_transform_2 i) (hinb0_2 i)).WholeWords (EltTy.packing .bf16)
  hrank1 : 0 < grid1.rank
  k1_off1_inb : ∀ i : grid1.Coords, ∀ a, (k1_off1 i) a + S1x4096x128.size a ≤ S8x4096x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x4096.size a ≤ S8x4096x4096.size a
  hwx1_0 : ∀ i : grid1.Coords, EltTy.bits .f32 = 32 ∨ (Rect.block (s := S8x4096x4096) S1x512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x4096x128.size a ≤ S8x4096x128.size a
  hwx1_1 : ∀ i : grid1.Coords, EltTy.bits .bf16 = 32 ∨ (Rect.block (s := S8x4096x128) S8x4096x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S4096x128.size a
  hwx1_2 : ∀ i : grid1.Coords, EltTy.bits .f32 = 32 ∨ (Rect.block (s := S4096x128) S512x128.size (cc1_transform_2 i) (hinb1_2 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_arg0) S4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1x512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8x4096x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x128 : Shape := ⟨2, ![4096, 128]⟩
abbrev S8x4096x4096 : Shape := ⟨3, ![8, 4096, 4096]⟩
abbrev S8x128x128 : Shape := ⟨3, ![8, 128, 128]⟩
abbrev S8x128x4096 : Shape := ⟨3, ![8, 128, 4096]⟩
abbrev S8x4096x128 : Shape := ⟨3, ![8, 4096, 128]⟩
abbrev S_ : Shape := ⟨0, ![]⟩
abbrev S8x4096 : Shape := ⟨2, ![8, 4096]⟩
abbrev S8x4096x1 : Shape := ⟨3, ![8, 4096, 1]⟩

abbrev nBuf : Space → Nat
  | .hbm => 16
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S8x4096x4096, .f32⟩
  | .hbm, ⟨2, _⟩ => ⟨S8x128x128, .f32⟩
  | .hbm, ⟨3, _⟩ => ⟨S8x128x4096, .f32⟩
  | .hbm, ⟨4, _⟩ => ⟨S8x4096x128, .f32⟩
  | .hbm, ⟨5, _⟩ => ⟨S8x4096x128, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S8x4096x128, .f32⟩
  | .hbm, ⟨13, _⟩ => ⟨S8x4096x128, .f32⟩
  | .hbm, ⟨14, _⟩ => ⟨S_, .f32⟩
  | .hbm, ⟨15, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  transposes_S8x128x4096_S8x4096x128_0_2_1 : S8x128x4096.Transposes [0, 2, 1] S8x4096x128
  reducesTo_S8x4096x4096_S8x4096_d2 : S8x4096x4096.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x128_0_1_2 : S8x4096x1.BroadcastsInDim S8x4096x128 (![0, 1, 2] : Fin 3 → Fin S8x4096x128.rank)
  reducesTo_S8x4096x128_S4096x128_d0 : S8x4096x128.ReducesTo [0] S4096x128
  dot_S8x128x128_S4096x128_S8x128x4096_2_1_01_0_n_n_wf : DotDims.WF S8x128x128 S4096x128 S8x128x4096 [2] [1] [0, 1] [0] [] []
  dot_S8x4096x4096_S8x4096x128_S8x4096x128_2_1_1_2_0_0_wf : DotDims.WF S8x4096x4096 S8x4096x128 S8x4096x128 [2] [1] [1] [2] [0] [0]

variable [Facts₀]

def dot_S8x128x128_S4096x128_S8x128x4096_2_1_01_0_n_n : DotDims S8x128x128 S4096x128 S8x128x4096 where
  lhsContracting := [2]
  rhsContracting := [1]
  lhsNonContracting := [0, 1]
  rhsNonContracting := [0]
  lhsBatch := []
  rhsBatch := []
  wf := dot_S8x128x128_S4096x128_S8x128x4096_2_1_01_0_n_n_wf
def dot_S8x4096x4096_S8x4096x128_S8x4096x128_2_1_1_2_0_0 : DotDims S8x4096x4096 S8x4096x128 S8x4096x128 where
  lhsContracting := [2]
  rhsContracting := [1]
  lhsNonContracting := [1]
  rhsNonContracting := [2]
  lhsBatch := [0]
  rhsBatch := [0]
  wf := dot_S8x4096x4096_S8x4096x128_S8x4096x128_2_1_1_2_0_0_wf

class Facts : Prop extends Facts₀ where

variable [Facts]
-- ==== Proof.KernelNamed.lean ====
/-
  The tiled program's run with its result array NAMED. The program is two kernel launches in a row; after the
  second one the result buffer holds whatever the second launch's write-backs leave in it (`resultAfter`), and the
  three argument buffers hold what they held at the start. This is the same run as the one that shows the arguments
  unchanged, read at one more buffer: the last thread state holds every unscoped buffer at its final contents, and the
  result buffer is one of them.
-/
import proofs.«101637_j12300786335885_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the result buffer holds when the program returns: the second launch's output array after all its
    write-backs, the launch entered from the contents the first launch left. -/
abbrev resultAfter (c : Dev nD) : Buf (Elt F) ((c : Thread nD τ).loc main_v1) :=
  (dat1 (V1 m ρ) c).arrAt 2 cfg1.N

theorem W2_main_v1 (c : Dev nD) : W2 m ρ c (Proc.devRef .tc main_v1) = resultAfter m ρ c :=
  W2_arr m ρ c 2

set_option backward.isDefEq.respectTransparency.types false in
/-- Every weakly fair execution terminates, nothing faulting, with the result buffer at `resultAfter` and the
    argument buffers as launched. -/
theorem run : θ_run defs (onTc (τ := τ) (main (F := F))) ⟨m, fun _ => 0, ρ⟩ (fun r => ∀ c : Dev nD,
      r.2.mem ((c.tc : Thread nD τ).loc main_v1) = resultAfter m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_main_v1 m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end Cert.KernelIdeal.Named

end
-- ==== Proof.Spec.lean ====
/-
  The mathematics of the relational graph layer, as plain functions of the three argument arrays over the
  extended reals.

  * `featAt X W r n o`  — the projected feature of node `n` under relation `r`: the sum over `d` of
    `X (n, d) * W (r, o, d)` (node features against the ROWS of the relation's weight matrix).
  * `termAt A H r m o`  — relation `r`'s message to node `m`: the sum over `n` of `A (r, m, n) * H (r, n, o)`,
    divided by the row sum of `A (r, m, ·)` plus the small constant.
  * `aggAt A H m o`     — the sum of the eight relations' messages.

  The tiled program accumulates the eight messages one after the other, starting from the zero block; the
  whole-array program adds them in one reduction from zero. On the extended reals addition is commutative and
  associative (a commutative monoid, infinities included), so the two agree with no finiteness assumption:
  `sum_range_eq` turns the running sum over `0 … 7` into the sum over `Fin 8`.
-/
import Idealize.ShloMosaic.PureOps.Ideal
import Idealize.ShloMosaic.Lib.ValueIdx

noncomputable section

namespace Cert.Rgcn

open Idealize.ShloMosaic Idealize.ShloMosaic.ValueIdx

/-- The small constant added to every row sum (the same word in both programs: never evaluated). -/
abbrev epsE : EReal := Ideal.ofBits .f32 0x2B8CBCCC#32

/-- Node `n`'s projected feature `o` under relation `r`. -/
def featAt (X : (⟨2, ![4096, 128]⟩ : Shape).Idx → EReal) (W : (⟨3, ![8, 128, 128]⟩ : Shape).Idx → EReal)
    (r : Fin 8) (n : Fin 4096) (o : Fin 128) : EReal :=
  ∑ d : Fin 128, X (ix2 n d) * W (ix3 r o d)

/-- All projected features, as one array indexed (relation, node, feature). -/
def feat (X : (⟨2, ![4096, 128]⟩ : Shape).Idx → EReal) (W : (⟨3, ![8, 128, 128]⟩ : Shape).Idx → EReal) :
    (⟨3, ![8, 4096, 128]⟩ : Shape).Idx → EReal :=
  fun j => featAt X W (j 0) (j 1) (j 2)

theorem feat_apply (X : (⟨2, ![4096, 128]⟩ : Shape).Idx → EReal) (W : (⟨3, ![8, 128, 128]⟩ : Shape).Idx → EReal)
    (r : Fin 8) (n : Fin 4096) (o : Fin 128) : feat X W (ix3 r n o) = featAt X W r n o := rfl

/-- Relation `r`'s normalised message to node `m`, feature `o`. -/
def termAt (A : (⟨3, ![8, 4096, 4096]⟩ : Shape).Idx → EReal) (H : (⟨3, ![8, 4096, 128]⟩ : Shape).Idx → EReal)
    (r : Fin 8) (m : Fin 4096) (o : Fin 128) : EReal :=
  Ideal.div (∑ n : Fin 4096, A (ix3 r m n) * H (ix3 r n o)) ((∑ n : Fin 4096, A (ix3 r m n)) + epsE)

/-- The layer's output at node `m`, feature `o`: the eight relations' messages added. -/
def aggAt (A : (⟨3, ![8, 4096, 4096]⟩ : Shape).Idx → EReal) (H : (⟨3, ![8, 4096, 128]⟩ : Shape).Idx → EReal)
    (m : Fin 4096) (o : Fin 128) : EReal :=
  ∑ r : Fin 8, termAt A H r m o

/-- The output array. -/
def agg (A : (⟨3, ![8, 4096, 4096]⟩ : Shape).Idx → EReal) (H : (⟨3, ![8, 4096, 128]⟩ : Shape).Idx → EReal) :
    (⟨2, ![4096, 128]⟩ : Shape).Idx → EReal :=
  fun j => aggAt A H (j 0) (j 1)

theorem agg_apply (A : (⟨3, ![8, 4096, 4096]⟩ : Shape).Idx → EReal) (H : (⟨3, ![8, 4096, 128]⟩ : Shape).Idx → EReal)
    (m : Fin 4096) (o : Fin 128) : agg A H (ix2 m o) = aggAt A H m o := rfl

/-- A message addressed by natural numbers (zero outside the ranges): what a running sum over grid points adds. -/
def termN (A : (⟨3, ![8, 4096, 4096]⟩ : Shape).Idx → EReal) (H : (⟨3, ![8, 4096, 128]⟩ : Shape).Idx → EReal)
    (r m : ℕ) (o : Fin 128) : EReal :=
  if h : r < 8 ∧ m < 4096 then termAt A H ⟨r, h.1⟩ ⟨m, h.2⟩ o else 0

theorem termN_of_lt (A : (⟨3, ![8, 4096, 4096]⟩ : Shape).Idx → EReal) (H : (⟨3, ![8, 4096, 128]⟩ : Shape).Idx → EReal)
    (r : Fin 8) (m : Fin 4096) (o : Fin 128) : termN A H r.val m.val o = termAt A H r m o := by
  unfold termN
  rw [dif_pos ⟨r.isLt, m.isLt⟩]

/-- The running sum of the messages of relations `0 … 7` is the sum over the eight relations. -/
theorem sum_range_eq (A : (⟨3, ![8, 4096, 4096]⟩ : Shape).Idx → EReal) (H : (⟨3, ![8, 4096, 128]⟩ : Shape).Idx → EReal)
    (m : Fin 4096) (o : Fin 128) : ∑ s ∈ Finset.range 8, termN A H s m.val o = aggAt A H m o := by
  unfold aggAt
  rw [Finset.sum_range]
  exact Finset.sum_congr rfl fun r _ => termN_of_lt A H r m o

end Cert.Rgcn

end
-- ==== Proof.LibMatmul.lean ====
/-
  A plain matrix product read at an entry: for an `[n, K]` matrix times a `[K, m]` matrix accumulated
  into zero, entry `(p, c)` of the result is the sum over `k` of `lhs (p, k) * rhs (k, c)`, at the exact
  values. The dimension numbers enter only through four facts about where the operand indices come
  from (rows of the left operand from the result's rows, its columns from the contraction position;
  rows of the right operand from the contraction position, its columns from the result's columns).
-/
import Idealize.ShloMosaic.Lib.ValueIdx
import Idealize.ShloMosaic.PureOps.Ideal.Laws

noncomputable section

namespace Cert.PlainDot

open Idealize.ShloMosaic Idealize.ShloMosaic.ValueIdx

/-- Entry `(p, c)` of a plain product into a zero accumulator is `∑ k, lhs (p, k) * rhs (k, c)`. -/
theorem matmul_zero_apply {n K m : ℕ} {φ₁ φ₂ : FTy}
    (D : DotDims ⟨2, ![n, K]⟩ ⟨2, ![K, m]⟩ ⟨2, ![n, m]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![n, K]⟩ φ₁) (rhs : FVec Ideal ⟨2, ![K, m]⟩ φ₂) (p : Fin n) (c : Fin m) :
    matmul D prec lhs rhs (constant ⟨2, ![n, m]⟩ .f32 0x00000000#32) (ix2 p c)
      = ∑ k : Fin K, lhs (ix2 p k) * rhs (ix2 k c) := by
  show FloatOps.matmul D prec lhs rhs (constant ⟨2, ![n, m]⟩ .f32 0x00000000#32) (ix2 p c) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainDot

end
-- ==== Proof.ProjectPayload.lean ====
/-
  The first kernel's arithmetic at an entry. Its body multiplies the whole node-feature matrix `X` ([4096, 128])
  by the TRANSPOSE of one relation's weight matrix ([128, 128], loaded as a [1, 128, 128] block) into a zero
  accumulator and stores the product as a [1, 4096, 128] block. Changes of float format are the identity on exact
  values, so entry `(·, n, o)` of what it stores is the sum over `d` of `X (n, d) * W (·, o, d)`.
-/
import proofs.«101637_j12300786335885_1_alg».proof.Proof.Gen.KernelIdeal.Skeleton
import proofs.«101637_j12300786335885_1_alg».proof.Proof.LibMatmul
import Idealize.ShloMosaic.Lib.ValueLayout

noncomputable section

namespace Cert.Rgcn.Project

open Cert.KernelIdeal Cert.KernelIdeal.Gen
open Idealize.ShloMosaic Idealize.ShloMosaic.ValueIdx

/-- Where the product's operand indices come from: rows of the left operand from the result's rows, -/
theorem lhs0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide),
    dif_pos (show (0 : Fin S4096x128.rank) ∈ dot_S4096x128_S128x128_S4096x128_1_0_0_1_n_n.lhsNonContracting by decide)]
  rfl
/-- its columns from the contraction position; -/
theorem lhs1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
/-- rows of the right operand from the contraction position, -/
theorem rhs0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
/-- its columns from the result's columns. -/
theorem rhs1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide),
    dif_pos (show (1 : Fin S128x128.rank) ∈ dot_S4096x128_S128x128_S4096x128_1_0_0_1_n_n.rhsNonContracting by decide)]
  rfl

/-- Entry `(u, n, o)` of the stored block: the sum over `d` of `X (n, d) * W (0, o, d)` of the loaded blocks. -/
theorem payload_apply (x : FVec Ideal S4096x128 .f32) (w : FVec Ideal S1x128x128 .f32) (u : Fin 1) (n : Fin 4096) (o : Fin 128) :
    k0_pay1 (F := Ideal) x w (ix3 u n o) = ∑ d : Fin 128, x (ix2 n d) * w (ix3 (0 : Fin 1) o d) := by
  unfold k0_pay1
  dsimp only
  refine (shapeCast_ab_1ab_apply _ shapeCasts_S4096x128_S1x4096x128 u n o).trans ?_
  refine (Cert.PlainDot.matmul_zero_apply dot_S4096x128_S128x128_S4096x128_1_0_0_1_n_n none rfl rfl lhs0 lhs1 rhs0 rhs1 _ _ n o).trans ?_
  refine Finset.sum_congr rfl fun d _ => ?_
  refine congrArg (x (ix2 n d) * ·) ?_
  exact (transpose_ix2_apply _ transposes_S128x128_p1_0_S128x128 d o).trans (shapeCast_1ab_ab_apply w shapeCasts_S1x128x128_S128x128 o d)

end Cert.Rgcn.Project

end
-- ==== Proof.Features.lean ====
/-
  What the first launch leaves in its output array. Its grid has one point per relation `r`; at that point the
  pipeline hands the body the whole node-feature matrix and block `r` of the weights, and writes the body's
  [1, 4096, 128] result back as block `r` of the [8, 4096, 128] output. The eight blocks tile the output, and block
  `r` is the restriction of ONE whole-array function — `feat X W`, entry `(r, n, o)` the sum over `d` of
  `X (n, d) * W (r, o, d)` — so after the launch the output array is `feat X W` of the two input arrays as the
  launch found them.
-/
import proofs.«101637_j12300786335885_1_alg».proof.Proof.Gen.KernelIdeal.Frame
import proofs.«101637_j12300786335885_1_alg».proof.Proof.Spec
import proofs.«101637_j12300786335885_1_alg».proof.Proof.ProjectPayload
import Idealize.ShloMosaic.Lib.Pipeline.Value

noncomputable section

namespace Cert.Rgcn.Features

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The block indices at grid point `t`: the node features are one block; the weights' and the output's block is
    number `t` along the relation axis. -/
theorem idx_facts : ∀ t : Fin cfg0.N,
    win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- One entry of a stored block is the matching entry of `feat`: for loaded blocks `x`, `w` that are the whole
    matrix `X` and row-block `r` of `W`, entry `y` of the body's result is `feat X W` at `(r, y₁, y₂)`. -/
theorem block_entry (x : FVec Ideal S4096x128 .f32) (w : FVec Ideal S1x128x128 .f32)
    (X : S4096x128.Idx → EReal) (W : S8x128x128.Idx → EReal) (r : Fin 8)
    (hx : ∀ (n : Fin 4096) (d : Fin 128), x (ix2 n d) = X (ix2 n d))
    (hw : ∀ (o d : Fin 128), w (ix3 (0 : Fin 1) o d) = W (ix3 r o d))
    (y : S1x4096x128.Idx) (j : S8x4096x128.Idx)
    (h0 : (j 0).val = r.val) (h1 : (j 1).val = (y 1).val) (h2 : (j 2).val = (y 2).val) :
    k0_pay1 (F := Ideal) x w y = Cert.Rgcn.feat X W j := by
  obtain ⟨u, n, o, rfl⟩ : ∃ (u : Fin 1) (n : Fin 4096) (o : Fin 128), y = ix3 u n o := ⟨y 0, y 1, y 2, eq_ix3 y⟩
  have ej : j = ix3 r n o := funext fun a => Fin.ext (by
    match a with
    | ⟨0, _⟩ => exact h0
    | ⟨1, _⟩ => exact h1
    | ⟨2, _⟩ => exact h2)
  rw [ej, Cert.Rgcn.feat_apply]
  refine (Cert.Rgcn.Project.payload_apply x w u n o).trans ?_
  unfold Cert.Rgcn.featAt
  exact Finset.sum_congr rfl fun d _ => by rw [hx, hw]

/-- What point `t` writes back is block `t` of `feat` of the two input arrays. -/
theorem flushed_eq (c : Dev nD) (t : Fin cfg0.N) :
    (dat0 V c).flushed 2 t
      = ((cfg0.win 2).blk t).view.read (Elt Ideal) (Cert.Rgcn.feat (V c main_arg0) (V c main_arg2)) := by
  show (cfg0.win 2).cut (grid0.coords t) ((dat0 V c).after 2 t) = _
  rw [after0_2]
  unfold out0_2
  rw [View.canon_unit_zero hz3]
  simp only [View.ld_unit_zero (S := S4096x128) hz2, View.ld_unit_zero (S := S1x128x128) hz3]
  obtain ⟨a0, a1, b0, b1, b2, c0, c1, c2⟩ := idx_facts t
  have ht : t.val < 8 := lt_of_lt_of_eq t.isLt N_0
  funext y
  refine block_entry (iblk0 V c 0 t) (iblk0 V c 1 t) (V c main_arg0) (V c main_arg2) ⟨t.val, ht⟩ ?_ ?_ y _ ?_ ?_ ?_
  · intro n d
    show V c main_arg0 (((cfg0.win 0).blk t).view.emb (ix2 n d)) = V c main_arg0 (ix2 n d)
    refine congrArg _ (funext fun a => Fin.ext ?_)
    match a with
    | ⟨0, _⟩ => show win0_0.index t (0 : Fin 2) * 4096 + 1 * n.val = n.val; rw [a0]; omega
    | ⟨1, _⟩ => show win0_0.index t (1 : Fin 2) * 128 + 1 * d.val = d.val; rw [a1]; omega
  · intro o d
    show V c main_arg2 (((cfg0.win 1).blk t).view.emb (ix3 (0 : Fin 1) o d)) = V c main_arg2 (ix3 (⟨t.val, ht⟩ : Fin 8) o d)
    refine congrArg _ (funext fun a => Fin.ext ?_)
    match a with
    | ⟨0, _⟩ => show win0_1.index t (0 : Fin 3) * 1 + 1 * 0 = t.val; rw [b0]; omega
    | ⟨1, _⟩ => show win0_1.index t (1 : Fin 3) * 128 + 1 * o.val = o.val; rw [b1]; omega
    | ⟨2, _⟩ => show win0_1.index t (2 : Fin 3) * 128 + 1 * d.val = d.val; rw [b2]; omega
  · show win0_2.index t (0 : Fin 3) * 1 + 1 * (y 0).val = t.val
    have hy : (y 0).val < 1 := (y 0).isLt
    rw [c0]; omega
  · show win0_2.index t (1 : Fin 3) * 4096 + 1 * (y 1).val = (y 1).val
    rw [c1]; omega
  · show win0_2.index t (2 : Fin 3) * 128 + 1 * (y 2).val = (y 2).val
    rw [c2]; omega

/-- An index of the output array is in point `t`'s block iff each coordinate is in the block's range. -/
theorem mem_blk (t : Fin cfg0.N) (i : S8x4096x128.Idx) :
    i ∈ ((cfg0.win 2).blk t).view.set ↔ ∀ a : Fin 3, win0_2.index t a * S1x4096x128.size a ≤ (i a).val
      ∧ (i a).val < win0_2.index t a * S1x4096x128.size a + S1x4096x128.size a := by
  show i ∈ ((View.whole main_v0).slice (win0_2.rect t)).set ↔ _
  rw [View.set_slice_whole, Rect.mem_set_unit]
  exact Iff.rfl

/-- Every index of the output array is in the block of the point numbered by its relation coordinate. -/
theorem cover (i : S8x4096x128.Idx) :
    ∃ t : Fin cfg0.N, (cfg0.win 2).flush t = true ∧ i ∈ ((cfg0.win 2).blk t).view.set := by
  have h0 : (i 0).val < 8 := (i 0).isLt
  have h1 : (i 1).val < 4096 := (i 1).isLt
  have h2 : (i 2).val < 128 := (i 2).isLt
  have hN : (i 0).val < cfg0.N := lt_of_lt_of_eq h0 N_0.symm
  refine ⟨⟨(i 0).val, hN⟩, flush0_2 _, ?_⟩
  rw [mem_blk]
  obtain ⟨-, -, -, -, -, c0', c1, c2⟩ := idx_facts ⟨(i 0).val, hN⟩
  have c0 : win0_2.index ⟨(i 0).val, hN⟩ (0 : Fin 3) = (i 0).val := c0'
  intro a
  match a with
  | ⟨0, _⟩ =>
    show win0_2.index ⟨(i 0).val, hN⟩ (0 : Fin 3) * 1 ≤ (i 0).val ∧ (i 0).val < win0_2.index ⟨(i 0).val, hN⟩ (0 : Fin 3) * 1 + 1
    rw [c0]; omega
  | ⟨1, _⟩ =>
    show win0_2.index ⟨(i 0).val, hN⟩ (1 : Fin 3) * 4096 ≤ (i 1).val ∧ (i 1).val < win0_2.index ⟨(i 0).val, hN⟩ (1 : Fin 3) * 4096 + 4096
    rw [c1]; omega
  | ⟨2, _⟩ =>
    show win0_2.index ⟨(i 0).val, hN⟩ (2 : Fin 3) * 128 ≤ (i 2).val ∧ (i 2).val < win0_2.index ⟨(i 0).val, hN⟩ (2 : Fin 3) * 128 + 128
    rw [c2]; omega

/-- After the first launch its output array holds every relation's projected features. -/
theorem final (c : Dev nD) :
    (dat0 V c).arrAt 2 cfg0.N = Cert.Rgcn.feat (V c main_arg0) (V c main_arg2) :=
  (dat0 V c).arrAt_eq_of_cover 2 (Cert.Rgcn.feat (V c main_arg0) (V c main_arg2)) (fun t _ => flushed_eq V c t) cover

end Cert.Rgcn.Features

end
-- ==== Proof.LibColumns.lean ====
/-
  Column vectors read at an index: a vector of `a` entries viewed as an `a × 1` column, a column
  broadcast along its rows to an `a × b` matrix, a `1 × 1` matrix broadcast to every entry of an
  `a × b` matrix; and a reduction along the rows of an `a × b` matrix read as a sum, or as a running
  maximum, over the row's entries.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx

variable {α : Type}

/-- An `[a]` vector cast to an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A `[1, 1]` matrix broadcast to `[a, b]` reads its one entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (q : Fin b) : broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The index of an `[a, b]` matrix over row `p` at position `k` of the reduced axis is `(p, k)`. -/
theorem lift_row {a b : ℕ} (h : Shape.Reduces ⟨2, ![a, b]⟩ [1] ⟨1, ![a]⟩) (p : Fin a) (k : Fin b) :
    h.lift (ix1 p) k = ix2 p k :=
  funext fun ax => Fin.ext (by match ax with | ⟨0, _⟩ => rfl | ⟨1, _⟩ => rfl)

end Cert.Columns

end
-- ==== Proof.MessagePayload.lean ====
/-
  The second kernel's arithmetic at an entry. At one grid point its body holds a [1, 512, 4096] block `a` of one
  relation's adjacency rows, that relation's [1, 4096, 128] slab `h` of projected features and the running
  [512, 128] output block `acc`; it stores `acc + (a · h) / (rowsum a + ε)`, the row sum taken along the 4096
  neighbours and broadcast along the 128 features. Entry `(p, q)`:
      acc (p, q) + (∑ n, a (0, p, n) * h (0, n, q)) / ((∑ n, a (0, p, n)) + ε).
-/
import proofs.«101637_j12300786335885_1_alg».proof.Proof.Gen.KernelIdeal.Skeleton
import proofs.«101637_j12300786335885_1_alg».proof.Proof.LibMatmul
import proofs.«101637_j12300786335885_1_alg».proof.Proof.LibColumns
import Idealize.ShloMosaic.Lib.ValueLayout

noncomputable section

namespace Cert.Rgcn.Message

open Cert.KernelIdeal Cert.KernelIdeal.Gen
open Idealize.ShloMosaic Idealize.ShloMosaic.ValueIdx

/-- Where the product's operand indices come from: rows of the left operand from the result's rows, -/
theorem lhs0 (i : S512x128.Idx) (q : dot_S512x4096_S4096x128_S512x128_1_0_0_1_n_n.contr.Idx) :
    (dot_S512x4096_S4096x128_S512x128_1_0_0_1_n_n.lhsIdx i q 0).val = (i 0).val := by
  unfold DotDims.lhsIdx
  rw [dif_neg (show ¬(0 : Fin S512x4096.rank) ∈ dot_S512x4096_S4096x128_S512x128_1_0_0_1_n_n.lhsBatch by decide),
    dif_pos (show (0 : Fin S512x4096.rank) ∈ dot_S512x4096_S4096x128_S512x128_1_0_0_1_n_n.lhsNonContracting by decide)]
  rfl
/-- its columns from the contraction position; -/
theorem lhs1 (i : S512x128.Idx) (q : dot_S512x4096_S4096x128_S512x128_1_0_0_1_n_n.contr.Idx) :
    (dot_S512x4096_S4096x128_S512x128_1_0_0_1_n_n.lhsIdx i q 1).val = (q ⟨0, by decide⟩).val :=
  dot_S512x4096_S4096x128_S512x128_1_0_0_1_n_n.lhsIdx_val_of_single rfl i q
/-- rows of the right operand from the contraction position, -/
theorem rhs0 (i : S512x128.Idx) (q : dot_S512x4096_S4096x128_S512x128_1_0_0_1_n_n.contr.Idx) :
    (dot_S512x4096_S4096x128_S512x128_1_0_0_1_n_n.rhsIdx i q 0).val = (q ⟨0, by decide⟩).val :=
  dot_S512x4096_S4096x128_S512x128_1_0_0_1_n_n.rhsIdx_val_of_single rfl i q
/-- its columns from the result's columns. -/
theorem rhs1 (i : S512x128.Idx) (q : dot_S512x4096_S4096x128_S512x128_1_0_0_1_n_n.contr.Idx) :
    (dot_S512x4096_S4096x128_S512x128_1_0_0_1_n_n.rhsIdx i q 1).val = (i 1).val := by
  unfold DotDims.rhsIdx
  rw [dif_neg (show ¬(1 : Fin S4096x128.rank) ∈ dot_S512x4096_S4096x128_S512x128_1_0_0_1_n_n.rhsBatch by decide),
    dif_pos (show (1 : Fin S4096x128.rank) ∈ dot_S512x4096_S4096x128_S512x128_1_0_0_1_n_n.rhsNonContracting by decide)]
  rfl

/-- Entry `(p, q)` of the stored block. -/
theorem payload_apply (a : FVec Ideal S1x512x4096 .f32) (h : FVec Ideal S1x4096x128 .bf16) (acc : FVec Ideal S512x128 .f32)
    (p : Fin 512) (q : Fin 128) :
    k1_pay2 (F := Ideal) a h acc (ix2 p q)
      = acc (ix2 p q) + Ideal.div (∑ n : Fin 4096, a (ix3 (0 : Fin 1) p n) * h (ix3 (0 : Fin 1) n q))
          ((∑ n : Fin 4096, a (ix3 (0 : Fin 1) p n)) + Ideal.ofBits .f32 0x2B8CBCCC#32) := by
  unfold k1_pay2
  dsimp only
  refine (addf_apply _ _ _).trans ?_
  refine congrArg₂ (· + ·) ?_ ?_
  · exact congrFun (shapeCast_self acc shapeCasts_S512x128_S512x128) _
  · refine (divf_apply _ _ _).trans ?_
    refine congrArg₂ Ideal.div ?_ ?_
    · refine (Cert.PlainDot.matmul_zero_apply dot_S512x4096_S4096x128_S512x128_1_0_0_1_n_n none rfl rfl lhs0 lhs1 rhs0 rhs1 _ _ p q).trans ?_
      refine Finset.sum_congr rfl fun n _ => ?_
      refine congrArg₂ (· * ·) ?_ ?_
      · exact shapeCast_1ab_ab_apply a shapeCasts_S1x512x4096_S512x4096 p n
      · exact shapeCast_1ab_ab_apply h shapeCasts_S1x4096x128_S4096x128 n q
    · refine (Cert.Columns.broadcastTo_a1_ab_apply _ broadcasts_S512x1_S512x128 p q).trans ?_
      refine (addf_apply _ _ _).trans ?_
      refine congrArg₂ (· + ·) ?_ rfl
      refine (Cert.Columns.shapeCast_a_a1_apply _ shapeCasts_S512_S512x1 p (0 : Fin 1)).trans ?_
      refine (Ideal.multiReduction_add_single _ 0x00000000#32 reduces_S512x4096_S512 (.inl rfl) rfl (ix1 p)).trans ?_
      refine Finset.sum_congr rfl fun k _ => ?_
      exact (congrArg _ (Cert.Columns.lift_row reduces_S512x4096_S512 p k)).trans
        (shapeCast_1ab_ab_apply a shapeCasts_S1x512x4096_S512x4096 p k)

end Cert.Rgcn.Message

end
-- ==== Proof.Messages.lean ====
/-
  What the second launch leaves in its output array. Its grid is (row tile `i`, relation `r`), relation innermost:
  point number `8 i + r`. At that point the pipeline hands the body the [1, 512, 4096] block of adjacency rows
  `512 i … 512 i + 511` of relation `r`, the whole [8, 4096, 128] array of projected features (the body reads slab
  `r` of it), and the running [512, 128] output block of row tile `i`, which stays in its staging buffer from
  `r = 0` (where the body first stores zeros into it) to `r = 7` (after which it is written back).

  So the block after point `8 i + r` is the running sum of the messages of relations `0 … r` to the rows of tile
  `i` (`outsAt_apply`, by induction on the point: the first point of a tile starts from the zero block, every other
  point adds its message to what the point before left), the block written back at `8 i + 7` is the restriction of
  ONE whole-array function, `agg A H`, and the eight written-back blocks tile the output: after the launch the
  output array is `agg A H` of the adjacency and feature arrays as the launch found them.
-/
import proofs.«101637_j12300786335885_1_alg».proof.Proof.Gen.KernelIdeal.Frame
import proofs.«101637_j12300786335885_1_alg».proof.Proof.Spec
import proofs.«101637_j12300786335885_1_alg».proof.Proof.MessagePayload
import Idealize.ShloMosaic.Lib.Pipeline.Value
import Idealize.ShloMosaic.Lib.Tactic

noncomputable section

namespace Cert.Rgcn.Messages

open Cert.KernelIdeal Cert.KernelIdeal.Gen
open Idealize.ShloMosaic Idealize.ShloMosaic.TcCoe Idealize.SL.Sem Idealize.ShloMosaic.ValueIdx
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-! ## What the body leaves in the output block, in its two cases -/

section Pieces

variable {F : FTy → Type} [FloatOps F]

/-- The slab of the resident feature array the body loads: one relation's [1, 4096, 128] rectangle. -/
abbrev slab (i : grid1.Coords) : Rect S8x4096x128 :=
  Rect.unit (s := S8x4096x128) (k1_off1 i) S1x4096x128.size (k1_off1_inb i)

/-- At a point that is not the first of its row tile the body leaves `acc + message`: its one store's payload,
    whose loads read the adjacency block whole, the relation's slab, and the running block whole. -/
theorem out_B (c : Dev nD) (i : grid1.Coords) (a2 : Memref sig .tc .vmem S1x512x4096 .f32) (h2 : a2.IsWhole)
    (a3 : Memref sig .tc .vmem S8x4096x128 .bf16) (h3 : a3.IsWhole) (a4 : Memref sig .tc .vmem S512x128 .f32) (h4 : a4.IsWhole)
    (hc : ¬cond1_0 i) (x0 : Vec F S1x512x4096 .f32) (x1 : Vec F S8x4096x128 .bf16) (xo : Vec F S512x128 .f32) :
    out1_B_2 c i a2 h2 a3 h3 a4 h4 hc x0 x1 xo = k1_pay2 x0 (View.ld x1 (slab i)) xo := by
  unfold out1_B_2
  rw [View.read_writes_eq_canon _ _ _ (cover1_B_2 c i a2 h2 a3 h3 a4 h4 hc x0 x1 xo)]
  unfold kernelRun1_B
  dsimp only
  rw [View.canon_unit_zero hz2]
  simp only [View.readAt_eq_ld, h2.read_unread, h3.read_unread, h4.read_unread,
    View.ld_unit_zero (S := S1x512x4096) hz3, View.ld_unit_zero (S := S512x128) hz2]

/-- At the first point of a row tile the body stores the zero block, reads it back, and leaves `0 + message`. -/
theorem out_A (c : Dev nD) (i : grid1.Coords) (a2 : Memref sig .tc .vmem S1x512x4096 .f32) (h2 : a2.IsWhole)
    (a3 : Memref sig .tc .vmem S8x4096x128 .bf16) (h3 : a3.IsWhole) (a4 : Memref sig .tc .vmem S512x128 .f32) (h4 : a4.IsWhole)
    (hc : cond1_0 i) (x0 : Vec F S1x512x4096 .f32) (x1 : Vec F S8x4096x128 .bf16) :
    out1_A_2 c i a2 h2 a3 h3 a4 h4 hc x0 x1 = k1_pay2 x0 (View.ld x1 (slab i)) (k1_pay1 (F := F)) := by
  unfold out1_A_2
  rw [View.read_writes_eq_canon _ _ _ (cover1_A_2 c i a2 h2 a3 h3 a4 h4 hc x0 x1)]
  unfold kernelRun1_A
  dsimp only
  sl_unfold_words
  rw [View.canon_cons_unit_zero (S := S512x128) hz2, View.readCov_unit_zero (S := S512x128) _ hz2]
  simp only [View.readAt_eq_ld, h2.read_unread, h3.read_unread, View.ld_unit_zero (S := S1x512x4096) hz3]
  rfl

end Pieces

/-! ## One point's step at an entry -/

/-- For an adjacency block `a` that is rows `512 i … 512 i + 511` of relation `r` of `A`, a feature array `hb`
    that is `H`, and the slab at offset `(r, 0, 0)`: entry `(p, q)` of what the body stores is the running entry
    plus relation `r`'s message to row `512 i + p`. -/
theorem point_entry (a : FVec Ideal S1x512x4096 .f32) (hb : FVec Ideal S8x4096x128 .bf16) (acc : FVec Ideal S512x128 .f32)
    (off : Fin 3 → Nat) (inb : ∀ a, off a + S1x4096x128.size a ≤ S8x4096x128.size a)
    (A : S8x4096x4096.Idx → EReal) (H : S8x4096x128.Idx → EReal) (r i : ℕ) (hr : r < 8) (hi : i < 8)
    (hoff : off = ![r, 0, 0])
    (ha : ∀ (p : Fin 512) (n : Fin 4096) (j : S8x4096x4096.Idx), (j 0).val = r → (j 1).val = 512 * i + p.val → (j 2).val = n.val →
      a (ix3 (0 : Fin 1) p n) = A j)
    (hh : ∀ j : S8x4096x128.Idx, hb j = H j)
    (p : Fin 512) (q : Fin 128) :
    k1_pay2 (F := Ideal) a (View.ld hb (Rect.unit (s := S8x4096x128) off S1x4096x128.size inb)) acc (ix2 p q)
      = acc (ix2 p q) + Cert.Rgcn.termN A H r (512 * i + p.val) q := by
  subst hoff
  have hm : 512 * i + p.val < 4096 := by have := p.isLt; omega
  refine (Cert.Rgcn.Message.payload_apply a _ acc p q).trans ?_
  refine congrArg (acc (ix2 p q) + ·) ?_
  unfold Cert.Rgcn.termN
  rw [dif_pos ⟨hr, hm⟩]
  unfold Cert.Rgcn.termAt
  have ea : ∀ n : Fin 4096, a (ix3 (0 : Fin 1) p n) = A (ix3 (⟨r, hr⟩ : Fin 8) (⟨512 * i + p.val, hm⟩ : Fin 4096) n) :=
    fun n => ha p n _ rfl rfl rfl
  refine congrArg₂ Ideal.div ?_ ?_
  · refine Finset.sum_congr rfl fun n _ => congrArg₂ (· * ·) (ea n) ?_
    refine (hh _).trans (congrArg H (funext fun ax => Fin.ext ?_))
    match ax with
    | ⟨0, _⟩ => show r + 1 * 0 = r; omega
    | ⟨1, _⟩ => show 0 + 1 * n.val = n.val; omega
    | ⟨2, _⟩ => show 0 + 1 * q.val = q.val; omega
  · exact congrArg (· + Cert.Rgcn.epsE) (Finset.sum_congr rfl fun n _ => ea n)

/-- The zero block reads zero. -/
theorem zero_block_apply (y : S512x128.Idx) : k1_pay1 (F := Ideal) y = 0 := by
  show Ideal.ofBits .f32 0x00000000#32 = 0
  exact Ideal.ofBits_zero_f32

/-! ## The running block, the written-back blocks, the array -/

variable (V : (c : Dev nD) → (b : Ref sig .tc) → Buf (Elt Ideal) ((c : Thread nD τ).loc b))

/-- The block indices and the slab's offset at grid point `t` = `8 i + r`: the adjacency block is (relation `r`, row
    tile `i`), the feature array is one block, the output block is row tile `i`, the slab is relation `r`'s. -/
theorem idx_facts : ∀ t : Fin cfg1.N,
    win1_0.index t (0 : Fin 3) = t.val % 8 ∧ win1_0.index t (1 : Fin 3) = t.val / 8 ∧ win1_0.index t (2 : Fin 3) = 0
    ∧ win1_1.index t (0 : Fin 3) = 0 ∧ win1_1.index t (1 : Fin 3) = 0 ∧ win1_1.index t (2 : Fin 3) = 0
    ∧ win1_2.index t (0 : Fin 2) = t.val / 8 ∧ win1_2.index t (1 : Fin 2) = 0
    ∧ k1_off1 (grid1.coords t) = ![t.val % 8, 0, 0] :=
  (by decide +kernel : ∀ t : Fin grid1.N, _)

/-- One point's step: whatever the running block `acc`, entry `(p, q)` of what the body stores at point `t` is
    `acc (p, q)` plus relation `t % 8`'s message to row `512 (t / 8) + p`. -/
theorem step_entry (c : Dev nD) (t : Fin cfg1.N) (acc : FVec Ideal S512x128 .f32) (p : Fin 512) (q : Fin 128) :
    k1_pay2 (F := Ideal) (iblk1 V c 0 t) (View.ld (iblk1 V c 1 t) (slab (grid1.coords t))) acc (ix2 p q)
      = acc (ix2 p q) + Cert.Rgcn.termN (V c main_arg1) (V c main_v0) (t.val % 8) (512 * (t.val / 8) + p.val) q := by
  obtain ⟨f0, f1, f2, g0, g1, g2, -, -, ho⟩ := idx_facts t
  have ht : t.val < 64 := lt_of_lt_of_eq t.isLt N_1
  refine point_entry (iblk1 V c 0 t) (iblk1 V c 1 t) acc _ _ (V c main_arg1) (V c main_v0) (t.val % 8) (t.val / 8)
    (by omega) (by omega) ho ?_ ?_ p q
  · intro p n j hj0 hj1 hj2
    show V c main_arg1 (((cfg1.win 0).blk t).view.emb (ix3 (0 : Fin 1) p n)) = V c main_arg1 j
    refine congrArg _ (funext fun ax => Fin.ext ?_)
    match ax with
    | ⟨0, _⟩ => show win1_0.index t (0 : Fin 3) * 1 + 1 * 0 = (j 0).val; rw [f0, hj0]; omega
    | ⟨1, _⟩ => show win1_0.index t (1 : Fin 3) * 512 + 1 * p.val = (j 1).val; rw [f1, hj1]; omega
    | ⟨2, _⟩ => show win1_0.index t (2 : Fin 3) * 4096 + 1 * n.val = (j 2).val; rw [f2, hj2]; omega
  · intro j
    show V c main_v0 (((cfg1.win 1).blk t).view.emb j) = V c main_v0 j
    refine congrArg _ (funext fun ax => Fin.ext ?_)
    match ax with
    | ⟨0, _⟩ => show win1_1.index t (0 : Fin 3) * 8 + 1 * (j 0).val = (j 0).val; rw [g0]; omega
    | ⟨1, _⟩ => show win1_1.index t (1 : Fin 3) * 4096 + 1 * (j 1).val = (j 1).val; rw [g1]; omega
    | ⟨2, _⟩ => show win1_1.index t (2 : Fin 3) * 128 + 1 * (j 2).val = (j 2).val; rw [g2]; omega

/-- THE RUNNING SUM. After point `n` the output block of row tile `n / 8` holds, at `(p, q)`, the messages of
    relations `0 … n % 8` to row `512 (n / 8) + p`, added in that order. -/
theorem outsAt_apply (c : Dev nD) : ∀ (n : ℕ) (h : n < cfg1.N) (p : Fin 512) (q : Fin 128),
    outsAt1 V c n h (ix2 p q)
      = ∑ s ∈ Finset.range (n % 8 + 1), Cert.Rgcn.termN (V c main_arg1) (V c main_v0) s (512 * (n / 8) + p.val) q := by
  have first : ∀ (t : Fin cfg1.N) (h0 : t.val % 8 = 0) (p : Fin 512) (q : Fin 128),
      outsAt1 V c t.val t.isLt (ix2 p q)
        = ∑ s ∈ Finset.range (t.val % 8 + 1), Cert.Rgcn.termN (V c main_arg1) (V c main_v0) s (512 * (t.val / 8) + p.val) q := by
    intro t h0 p q
    rw [outsAt1_A V c t h0, out_A]
    refine (step_entry V c t _ p q).trans ?_
    rw [zero_block_apply, zero_add, h0, Finset.sum_range_one]
  intro n
  induction n with
  | zero => intro h p q; exact first ⟨0, h⟩ rfl p q
  | succ k ih =>
    intro h p q
    by_cases h0 : (k + 1) % 8 = 0
    · exact first ⟨k + 1, h⟩ h0 p q
    · have hB : ¬(⟨k + 1, h⟩ : Fin cfg1.N).val % 8 = 0 := h0
      have e1 : (k + 1) / 8 = k / 8 := by omega
      have e2 : (k + 1) % 8 = k % 8 + 1 := by omega
      rw [outsAt1_B V c ⟨k + 1, h⟩ hB, out_B]
      refine (step_entry V c ⟨k + 1, h⟩ _ p q).trans ?_
      show outsAt1 V c k _ (ix2 p q) + Cert.Rgcn.termN _ _ ((k + 1) % 8) (512 * ((k + 1) / 8) + p.val) q = _
      rw [ih (Nat.lt_of_succ_lt h) p q, e1, e2, Finset.sum_range_succ _ (k % 8 + 1)]

/-- One entry of a written-back block is the matching entry of `agg`. -/
theorem block_entry (o : FVec Ideal S512x128 .f32) (A : S8x4096x4096.Idx → EReal) (H : S8x4096x128.Idx → EReal)
    (i : ℕ) (hi : i < 8)
    (ho : ∀ (p : Fin 512) (q : Fin 128), o (ix2 p q) = ∑ s ∈ Finset.range 8, Cert.Rgcn.termN A H s (512 * i + p.val) q)
    (y : S512x128.Idx) (j : S4096x128.Idx) (h0 : (j 0).val = 512 * i + (y 0).val) (h1 : (j 1).val = (y 1).val) :
    o y = Cert.Rgcn.agg A H j := by
  obtain ⟨p, q, rfl⟩ : ∃ (p : Fin 512) (q : Fin 128), y = ix2 p q := ⟨y 0, y 1, eq_ix2 y⟩
  have hm : 512 * i + p.val < 4096 := by have := p.isLt; omega
  have ej : j = ix2 (⟨512 * i + p.val, hm⟩ : Fin 4096) q := funext fun a => Fin.ext (by
    match a with
    | ⟨0, _⟩ => exact h0
    | ⟨1, _⟩ => exact h1)
  rw [ej, Cert.Rgcn.agg_apply, ← Cert.Rgcn.sum_range_eq, ho]

/-- What a point that writes back (`t % 8 = 7`) writes is its block of `agg` of the two input arrays. -/
theorem flushed_eq (c : Dev nD) (t : Fin cfg1.N) (hf : (cfg1.win 2).flush t = true) :
    (dat1 V c).flushed 2 t
      = ((cfg1.win 2).blk t).view.read (Elt Ideal) (Cert.Rgcn.agg (V c main_arg1) (V c main_v0)) := by
  have h7 : t.val % 8 = 7 := (flush1_2 t).mp hf
  have ht : t.val < 64 := lt_of_lt_of_eq t.isLt N_1
  obtain ⟨-, -, -, -, -, -, k0, k1, -⟩ := idx_facts t
  show (cfg1.win 2).cut (grid1.coords t) ((dat1 V c).after 2 t) = _
  rw [after1_2]
  funext y
  refine block_entry (outsAt1 V c t.val t.isLt) (V c main_arg1) (V c main_v0) (t.val / 8) (by omega)
    (fun p q => by rw [outsAt_apply V c t.val t.isLt p q, h7]) y _ ?_ ?_
  · show win1_2.index t (0 : Fin 2) * 512 + 1 * (y 0).val = 512 * (t.val / 8) + (y 0).val
    rw [k0]; omega
  · show win1_2.index t (1 : Fin 2) * 128 + 1 * (y 1).val = (y 1).val
    rw [k1]; omega

/-- An index of the output array is in point `t`'s block iff each coordinate is in the block's range. -/
theorem mem_blk (t : Fin cfg1.N) (i : S4096x128.Idx) :
    i ∈ ((cfg1.win 2).blk t).view.set ↔ ∀ a : Fin 2, win1_2.index t a * S512x128.size a ≤ (i a).val
      ∧ (i a).val < win1_2.index t a * S512x128.size a + S512x128.size a := by
  show i ∈ ((View.whole main_v1).slice (win1_2.rect t)).set ↔ _
  rw [View.set_slice_whole, Rect.mem_set_unit]
  exact Iff.rfl

/-- Row `m` of the output is written back by the last point of row tile `m / 512`. -/
theorem cover (i : S4096x128.Idx) :
    ∃ t : Fin cfg1.N, (cfg1.win 2).flush t = true ∧ i ∈ ((cfg1.win 2).blk t).view.set := by
  have h0 : (i 0).val < 4096 := (i 0).isLt
  have h1 : (i 1).val < 128 := (i 1).isLt
  have hN : 8 * ((i 0).val / 512) + 7 < cfg1.N := lt_of_lt_of_eq (by omega) N_1.symm
  refine ⟨⟨8 * ((i 0).val / 512) + 7, hN⟩, (flush1_2 _).mpr (by show (8 * ((i 0).val / 512) + 7) % 8 = 7; omega), ?_⟩
  rw [mem_blk]
  obtain ⟨-, -, -, -, -, -, k0', k1, -⟩ := idx_facts ⟨8 * ((i 0).val / 512) + 7, hN⟩
  have k0 : win1_2.index ⟨8 * ((i 0).val / 512) + 7, hN⟩ (0 : Fin 2) = (8 * ((i 0).val / 512) + 7) / 8 := k0'
  intro a
  match a with
  | ⟨0, _⟩ =>
    show win1_2.index ⟨8 * ((i 0).val / 512) + 7, hN⟩ (0 : Fin 2) * 512 ≤ (i 0).val
      ∧ (i 0).val < win1_2.index ⟨8 * ((i 0).val / 512) + 7, hN⟩ (0 : Fin 2) * 512 + 512
    rw [k0]; omega
  | ⟨1, _⟩ =>
    show win1_2.index ⟨8 * ((i 0).val / 512) + 7, hN⟩ (1 : Fin 2) * 128 ≤ (i 1).val
      ∧ (i 1).val < win1_2.index ⟨8 * ((i 0).val / 512) + 7, hN⟩ (1 : Fin 2) * 128 + 128
    rw [k1]; omega

/-- After the second launch its output array holds the layer's output. -/
theorem final (c : Dev nD) :
    (dat1 V c).arrAt 2 cfg1.N = Cert.Rgcn.agg (V c main_arg1) (V c main_v0) :=
  (dat1 V c).arrAt_eq_of_cover 2 (Cert.Rgcn.agg (V c main_arg1) (V c main_v0)) (flushed_eq V c) cover

end Cert.Rgcn.Messages

end
-- ==== Proof.KernelValue.lean ====
/-
  The tiled program's result as a function of its three arguments. The first launch reads the node features and
  the weights as launched and leaves `feat X W` in the intermediate array; the second launch reads the adjacency
  array as launched (the first launch does not touch it) and the intermediate array as the first launch left it, and
  leaves `agg A (feat X W)` in the result array.
-/
import proofs.«101637_j12300786335885_1_alg».proof.Proof.KernelNamed
import proofs.«101637_j12300786335885_1_alg».proof.Proof.Features
import proofs.«101637_j12300786335885_1_alg».proof.Proof.Messages

noncomputable section

namespace Cert.Rgcn.Kernel

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The second launch finds the adjacency array as launched. -/
theorem adjacency_at_entry (c : Dev nD) : V1 m ρ c main_arg1 = m ((c.tc : Thread nD τ).loc main_arg1) :=
  W1_of_ne m ρ c main_arg1 (by decide)

/-- The second launch finds the projected features in the intermediate array. -/
theorem features_at_entry (c : Dev nD) :
    V1 m ρ c main_v0 = Cert.Rgcn.feat (m ((c.tc : Thread nD τ).loc main_arg0)) (m ((c.tc : Thread nD τ).loc main_arg2)) :=
  (W1_arr m ρ c 2).trans (Cert.Rgcn.Features.final (V0 m ρ) c)

/-- The result array when the program returns. -/
theorem result_value (c : Dev nD) :
    Cert.KernelIdeal.Named.resultAfter m ρ c
      = Cert.Rgcn.agg (m ((c.tc : Thread nD τ).loc main_arg1))
          (Cert.Rgcn.feat (m ((c.tc : Thread nD τ).loc main_arg0)) (m ((c.tc : Thread nD τ).loc main_arg2))) := by
  show (dat1 (V1 m ρ) c).arrAt 2 cfg1.N = _
  rw [Cert.Rgcn.Messages.final (V1 m ρ) c, adjacency_at_entry m ρ c, features_at_entry m ρ c]

end Cert.Rgcn.Kernel

end
-- ==== Proof.ReferenceValue.lean ====
/-
  The whole-array program computes the same two functions. Its first product and transpose give, at
  `(r, n, o)`, the sum over `d` of `W (r, o, d) * X (n, d)` — `featAt` with the factors in the other order —; its
  batched product, row sum, added constant, broadcast and quotient give `termAt` of that array at `(r, m, o)`; and
  its last reduction adds the eight relations' terms from zero: `agg A (feat X W)`, entry by entry.
-/
import proofs.«101637_j12300786335885_1_alg».proof.Proof.Gen.ReferenceIdeal.Read
import proofs.«101637_j12300786335885_1_alg».proof.Proof.Spec

noncomputable section

namespace Cert.Rgcn.Reference

open Cert.ReferenceIdeal Cert.ReferenceIdeal.Read
open Idealize.ShloMosaic Idealize.ShloMosaic.ValueIdx

/-- The transposed first product at `(r, n, o)` is node `n`'s projected feature `o` under relation `r`. -/
theorem features_entry (X : (⟨S4096x128, .f32⟩ : BufTy).Contents (Elt Ideal)) (W : (⟨S8x128x128, .f32⟩ : BufTy).Contents (Elt Ideal))
    (r : Fin 8) (n : Fin 4096) (o : Fin 128) :
    val_main_v1 (F := Ideal) X W (ix3 r n o) = Cert.Rgcn.featAt X W r n o := by
  rw [val_main_v1_apply, val_main_v0_apply]
  unfold Cert.Rgcn.featAt
  refine Finset.sum_congr rfl fun d _ => ?_
  refine (mul_comm _ _).trans (congrArg₂ (· * ·) (congrArg X ?_) (congrArg W ?_))
  · exact funext fun a => Fin.ext (by match a with | ⟨0, _⟩ => rfl | ⟨1, _⟩ => rfl)
  · exact funext fun a => Fin.ext (by match a with | ⟨0, _⟩ => rfl | ⟨1, _⟩ => rfl | ⟨2, _⟩ => rfl)

/-- The quotient at `(r, m, o)` is relation `r`'s normalised message to node `m`. -/
theorem message_entry (X : (⟨S4096x128, .f32⟩ : BufTy).Contents (Elt Ideal)) (A : (⟨S8x4096x4096, .f32⟩ : BufTy).Contents (Elt Ideal))
    (W : (⟨S8x128x128, .f32⟩ : BufTy).Contents (Elt Ideal)) (r : Fin 8) (m : Fin 4096) (o : Fin 128) :
    val_main_v8 (F := Ideal) X A W (ix3 r m o) = Cert.Rgcn.termAt A (Cert.Rgcn.feat X W) r m o := by
  rw [val_main_v8_apply, val_main_v2_apply, val_main_v7_apply, val_main_v6_apply, val_main_v4_apply, val_main_v3_apply,
    val_main_v5_apply, val_main_cst_0_apply, val_main_cst_apply]
  unfold Cert.Rgcn.termAt
  show Ideal.div _ ((Ideal.ofBits .f32 0x00000000#32 + _) + Ideal.ofBits .f32 0x2B8CBCCC#32) = _
  rw [Ideal.ofBits_zero_f32, zero_add]
  refine congrArg₂ Ideal.div ?_ (congrArg (· + Cert.Rgcn.epsE) ?_)
  · refine Finset.sum_congr rfl fun n _ => ?_
    have e1 : lidx_main_v2 (ix3 r m o) n = ix3 r m n :=
      funext fun a => Fin.ext (by match a with | ⟨0, _⟩ => rfl | ⟨1, _⟩ => rfl | ⟨2, _⟩ => rfl)
    have e2 : ridx_main_v2 (ix3 r m o) n = ix3 r n o :=
      funext fun a => Fin.ext (by match a with | ⟨0, _⟩ => rfl | ⟨1, _⟩ => rfl | ⟨2, _⟩ => rfl)
    rw [e1, e2, features_entry, Cert.Rgcn.feat_apply]
  · refine Finset.sum_congr rfl fun n _ => congrArg A ?_
    exact funext fun a => Fin.ext (by match a with | ⟨0, _⟩ => rfl | ⟨1, _⟩ => rfl | ⟨2, _⟩ => rfl)

/-- The program's result is the layer's output as a function of its three arguments. -/
theorem result_eq (X : (⟨S4096x128, .f32⟩ : BufTy).Contents (Elt Ideal)) (A : (⟨S8x4096x4096, .f32⟩ : BufTy).Contents (Elt Ideal))
    (W : (⟨S8x128x128, .f32⟩ : BufTy).Contents (Elt Ideal)) :
    val_main_v9 (F := Ideal) X A W = Cert.Rgcn.agg A (Cert.Rgcn.feat X W) := by
  funext i
  obtain ⟨m, o, rfl⟩ : ∃ (m : Fin 4096) (o : Fin 128), i = ix2 m o := ⟨i 0, i 1, eq_ix2 i⟩
  rw [Cert.Rgcn.agg_apply, val_main_v9_apply, val_main_cst_1_apply]
  unfold Cert.Rgcn.aggAt
  show Ideal.ofBits .f32 0x00000000#32 + _ = _
  rw [Ideal.ofBits_zero_f32, zero_add]
  refine Finset.sum_congr rfl fun r _ => ?_
  have e : idx_main_v9 (ix2 m o) r = ix3 r m o :=
    funext fun a => Fin.ext (by match a with | ⟨0, _⟩ => rfl | ⟨1, _⟩ => rfl | ⟨2, _⟩ => rfl)
  rw [e, message_entry]

end Cert.Rgcn.Reference

end
-- ==== Proof.lean ====
/-
  The relational graph layer: `out[m, :] = Σ_r (A[r, m, :] · H[r]) / (Σ_n A[r, m, n] + ε)` with `H[r] = X · W[r]ᵀ`.

  The tiled program is two kernel launches. The first computes the eight projected feature matrices `H[r]`, one
  relation per grid point (module Features). The second walks (row tile, relation), relation innermost, keeping a
  [512, 128] output block in place over the eight relations of a row tile: zeroed at the first, each relation's
  normalised message added, written back after the last (module Messages). The whole-array program computes the same
  quantities with two products, a row sum, a quotient and one reduction over the relations (module ReferenceValue).

  On exact values changes of float format are the identity, a matrix product into a zero accumulator is the plain sum
  of products, and the two programs differ only in the ORDER in which the eight messages are added — a running sum
  from the zero block against one reduction from zero. Addition of extended reals is commutative and associative,
  infinities included, so the results are equal entry by entry with no use of the finiteness precondition: both are
  `agg A (feat X W)` (module Spec). The idealization rewrote nothing, so its conjunct is trivial; the word-level and
  idealized programs' frames are the generated ones; the whole-array program's frame is its generated run with the
  result dropped.
-/
import proofs.«101637_j12300786335885_1_alg».proof.Defs
import proofs.«101637_j12300786335885_1_alg».proof.Proof.Gen.Kernel
import proofs.«101637_j12300786335885_1_alg».proof.Proof.Gen.Kernel.Skeleton
import proofs.«101637_j12300786335885_1_alg».proof.Proof.Gen.Kernel.Launch
import proofs.«101637_j12300786335885_1_alg».proof.Proof.Gen.Kernel.Points
import proofs.«101637_j12300786335885_1_alg».proof.Proof.Gen.Kernel.Frame
import proofs.«101637_j12300786335885_1_alg».proof.Proof.Gen.KernelIdeal
import proofs.«101637_j12300786335885_1_alg».proof.Proof.Gen.KernelIdeal.Skeleton
import proofs.«101637_j12300786335885_1_alg».proof.Proof.Gen.KernelIdeal.Launch
import proofs.«101637_j12300786335885_1_alg».proof.Proof.Gen.KernelIdeal.Points
import proofs.«101637_j12300786335885_1_alg».proof.Proof.Gen.KernelIdeal.Frame
import proofs.«101637_j12300786335885_1_alg».proof.Proof.Gen.ReferenceIdeal
import proofs.«101637_j12300786335885_1_alg».proof.Proof.Gen.ReferenceIdeal.Run
import proofs.«101637_j12300786335885_1_alg».proof.Proof.Gen.ReferenceIdeal.Read
import proofs.«101637_j12300786335885_1_alg».proof.Proof.KernelNamed
import proofs.«101637_j12300786335885_1_alg».proof.Proof.KernelValue
import proofs.«101637_j12300786335885_1_alg».proof.Proof.ReferenceValue
import proofs.«101637_j12300786335885_1_alg».proof.Proof.Gen.Pre_finite_inputs
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On exact values the tiled program's result array ends at `agg A (feat X W)` of its arguments and the whole-array
    program's at the same function of arguments that agree. -/
theorem algebraic : Cert.algebraic_KernelIdeal_ReferenceIdeal := by
  intro m ρ m' ρ' _ hagree
  refine ⟨fun c => Cert.KernelIdeal.Named.resultAfter m ρ c, Cert.KernelIdeal.Named.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.Rgcn.Reference.result_eq, (hagree c).1, (hagree c).2.1, (hagree c).2.2]
  exact (Cert.Rgcn.Kernel.result_value m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
